-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8x4096x1024 .f32) (main_arg2 : FVec F S1024x1024 .f32) (main_arg3 : FVec F S1024x1024 .f32) (main_arg4 : FVec F S1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S32768x1024 : Shape := ⟨2, ![32768, 1024]⟩
abbrev S1024x2048 : Shape := ⟨2, ![1024, 2048]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 19
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S32768x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x2048, .bf16⟩
  | .hbm, ⟨13, _⟩ => ⟨S1x1024, .f32⟩
  | .hbm, ⟨14, _⟩ => ⟨S1x1024, .f32⟩
  | .hbm, ⟨15, _⟩ => ⟨S32768x1024, .f32⟩
  | .hbm, ⟨16, _⟩ => ⟨S32768x1024, .f32⟩
  | .hbm, ⟨17, _⟩ => ⟨S8x4096x1024, .f32⟩
  | .hbm, ⟨18, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  transposes_S1024x1024_S1024x1024_1_0 : S1024x1024.Transposes [1, 0] S1024x1024
  bitsLt_bf16_f32 : FTy.bits .bf16 < FTy.bits .f32
  concatenates_S1024x1024_S1024x1024_S1024x2048_d1 : Shape.Concatenates [S1024x1024, S1024x1024] S1024x2048 1
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S512x2048_o0_0_S512x1024 : S512x2048.Slices ![0, 0] S512x1024
  slices_S512x2048_o0_1024_S512x1024 : S512x2048.Slices ![0, 1024] S512x1024
  broadcasts_S1x1024_S512x1024 : S1x1024.Broadcasts S512x1024
  shapeCasts_S32768x1024_S8x4096x1024 : S32768x1024.ShapeCasts S8x4096x1024
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S1x1x1024, .f32⟩
  | .hbm, ⟨11, _⟩ => ⟨S8x4096x1024, .f32⟩
  | .hbm, ⟨12, _⟩ => ⟨S8x4096x1024, .f32⟩
  | .hbm, ⟨13, _⟩ => ⟨S1x1x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.DftSpec.lean ====
/-
  The discrete Fourier transform as four real matrix products.

  For complex rows `x = x_r + i x_i` and a complex matrix `w = w_r + i w_i` with a complex bias `b = b_r + i b_i`, the
  transform `x ↦ x wᵀ + b`, kept as its two real convolutions `conv_r(v) = v w_rᵀ + b_r` and `conv_i(v) = v w_iᵀ + b_i`
  and combined as the program does, has

    real[b, f, k] = (Σ_n x_r[b, f, n] · w_r[k, n] + b_r[k]) − (Σ_n x_i[b, f, n] · w_i[k, n] + b_i[k])
    imag[b, f, k] = (Σ_n x_r[b, f, n] · w_i[k, n] + b_i[k]) + (Σ_n x_i[b, f, n] · w_r[k, n] + b_r[k]).

  This module states those two arrays as functions of the six argument arrays, index by index, over the extended
  reals. Both programs compute exactly these sums in exactly this grouping, so no law of the extended reals beyond
  reading each operation at an index is needed, and nothing here asks the entries to be finite.
-/
import Idealize.ShloMosaic.PureOps.Ideal
import Idealize.ShloMosaic.Lib.ValueIdx

noncomputable section

namespace Cert.Dft

open Idealize.ShloMosaic Idealize.ShloMosaic.ValueIdx

/-- The signal arrays: 8 batches of 4096 frames of 1024 samples. -/
abbrev SX : Shape := ⟨3, ![8, 4096, 1024]⟩
/-- A weight matrix: output frequency `k` by input sample `n`. -/
abbrev SW : Shape := ⟨2, ![1024, 1024]⟩
/-- A bias vector, one entry per output frequency. -/
abbrev SB : Shape := ⟨1, ![1024]⟩

/-- Frame `(b, f)` of `x` against row `k` of `w`: the entry `(b, f, k)` of `x wᵀ`. -/
def rowDot (x : SX.Idx → EReal) (w : SW.Idx → EReal) (b : Fin 8) (f : Fin 4096) (k : Fin 1024) : EReal :=
  ∑ n : Fin 1024, x (ix3 b f n) * w (ix2 k n)

/-- The real part at frame `(b, f)`, frequency `k`. -/
def realAt (xr xi : SX.Idx → EReal) (wr wi : SW.Idx → EReal) (br bi : SB.Idx → EReal)
    (b : Fin 8) (f : Fin 4096) (k : Fin 1024) : EReal :=
  (rowDot xr wr b f k + br (ix1 k)) - (rowDot xi wi b f k + bi (ix1 k))

/-- The imaginary part at frame `(b, f)`, frequency `k`. -/
def imagAt (xr xi : SX.Idx → EReal) (wr wi : SW.Idx → EReal) (br bi : SB.Idx → EReal)
    (b : Fin 8) (f : Fin 4096) (k : Fin 1024) : EReal :=
  (rowDot xr wi b f k + bi (ix1 k)) + (rowDot xi wr b f k + br (ix1 k))

/-- The real part as an array. -/
def real (xr xi : SX.Idx → EReal) (wr wi : SW.Idx → EReal) (br bi : SB.Idx → EReal) : SX.Idx → EReal :=
  fun i => realAt xr xi wr wi br bi (i 0) (i 1) (i 2)

/-- The imaginary part as an array. -/
def imag (xr xi : SX.Idx → EReal) (wr wi : SW.Idx → EReal) (br bi : SB.Idx → EReal) : SX.Idx → EReal :=
  fun i => imagAt xr xi wr wi br bi (i 0) (i 1) (i 2)

end Cert.Dft

end
-- ==== Proof.RefIsDft.lean ====
/-
  The reference computes the transform of `DftSpec`.

  Each of its four `dot_general`s contracts the sample axis of a signal array with the sample axis of a weight
  matrix, so its entry `(b, f, k)` is `Σ_n x[b, f, n] · w[k, n]`; each bias is broadcast along batches and frames, so
  it is read at the frequency coordinate alone; the sums and the one difference are taken entry by entry. Reading the
  two results at an index therefore gives the two formulas of the specification, term for term.
-/
import proofs.«158478_j75677323756101_2_alg».proof.Proof.Gen.ReferenceIdeal.Read
import proofs.«158478_j75677323756101_2_alg».proof.Proof.DftSpec

noncomputable section

namespace Cert.ReferenceIdeal.IsDft

open Cert.ReferenceIdeal Cert.ReferenceIdeal.Read Idealize.ShloMosaic Idealize.ShloMosaic.ValueIdx

/-- The left operand of a product is read at frame `(b, f)`, sample `n`. -/
theorem lidx_eq (i : S8x4096x1024.Idx) (n : Fin 1024) : lidx_main_v0 i n = ix3 (i 0) (i 1) n :=
  funext fun a => Fin.ext (by match a with | ⟨0, _⟩ => rfl | ⟨1, _⟩ => rfl | ⟨2, _⟩ => rfl)

/-- The right operand of a product is read at row `k`, sample `n`. -/
theorem ridx_eq (i : S8x4096x1024.Idx) (n : Fin 1024) : ridx_main_v0 i n = ix2 (i 2) n :=
  funext fun a => Fin.ext (by match a with | ⟨0, _⟩ => rfl | ⟨1, _⟩ => rfl)

/-- A bias broadcast to the whole array is read at the frequency coordinate. -/
theorem bias_idx_eq (i : S8x4096x1024.Idx) : idx_main_v4 (idx_main_v5 i) = ix1 (i 2) :=
  funext fun a => Fin.ext (by match a with | ⟨0, _⟩ => rfl)

/-- One product of the reference, at an index. -/
theorem dot_apply (x : S8x4096x1024.Idx → EReal) (w : S1024x1024.Idx → EReal) (i : S8x4096x1024.Idx) :
    val_main_v0 (F := Ideal) x w i = Cert.Dft.rowDot x w (i 0) (i 1) (i 2) := by
  rw [val_main_v0_apply]
  unfold Cert.Dft.rowDot
  exact Finset.sum_congr rfl fun n _ => by rw [lidx_eq, ridx_eq]; rfl

/-- One broadcast bias of the reference, at an index. -/
theorem bias_apply (b : S1024.Idx → EReal) (i : S8x4096x1024.Idx) :
    val_main_v5 (F := Ideal) b i = b (ix1 (i 2)) := by
  rw [val_main_v5_apply, val_main_v4_apply, bias_idx_eq]
  rfl

/-- The reference's first result is the real part. -/
theorem real_eq (x0 x1 : S8x4096x1024.Idx → EReal) (x2 x3 : S1024x1024.Idx → EReal) (x4 x5 : S1024.Idx → EReal) :
    val_main_v10 (F := Ideal) x0 x1 x2 x3 x4 x5 = Cert.Dft.real x0 x1 x2 x3 x4 x5 := by
  funext i
  show (val_main_v0 (F := Ideal) x0 x2 i + val_main_v5 (F := Ideal) x4 i)
      - (val_main_v0 (F := Ideal) x1 x3 i + val_main_v5 (F := Ideal) x5 i) = _
  rw [dot_apply, dot_apply, bias_apply, bias_apply]
  rfl

/-- The reference's second result is the imaginary part. -/
theorem imag_eq (x0 x1 : S8x4096x1024.Idx → EReal) (x2 x3 : S1024x1024.Idx → EReal) (x4 x5 : S1024.Idx → EReal) :
    val_main_v17 (F := Ideal) x0 x1 x2 x3 x4 x5 = Cert.Dft.imag x0 x1 x2 x3 x4 x5 := by
  funext i
  show (val_main_v0 (F := Ideal) x0 x3 i + val_main_v5 (F := Ideal) x5 i)
      + (val_main_v0 (F := Ideal) x1 x2 i + val_main_v5 (F := Ideal) x4 i) = _
  rw [dot_apply, dot_apply, bias_apply, bias_apply]
  rfl

end Cert.ReferenceIdeal.IsDft

end
-- ==== Proof.BlockValue.lean ====
/-
  What the kernel body computes for one block of 512 frames, entry by entry.

  The body multiplies the block's 512 × 1024 signal rows by ONE 1024 × 2048 matrix whose left half will be `w_rᵀ` and
  whose right half `w_iᵀ`, into a zero accumulator: entry `(p, j)` of a product is `Σ_n x[p, n] · w[n, j]` (the change of
  format before the product is the identity on the extended reals, and adding the sum to zero is the sum). The left
  and right halves of the two products are then columns `q` and `q + 1024`; each bias row is broadcast down the 512
  rows, so it is read at row `0`, column `q`; and the two stores are

    real-block[p, q] = (Σ_n xr[p, n] · w[n, q] + br[0, q]) − (Σ_n xi[p, n] · w[n, q + 1024] + bi[0, q])
    imag-block[p, q] = (Σ_n xr[p, n] · w[n, q + 1024] + bi[0, q]) + (Σ_n xi[p, n] · w[n, q] + br[0, q]).
-/
import proofs.«158478_j75677323756101_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- Column `q` of the left half of the 2048 columns. -/
abbrev colL (q : Fin 1024) : Fin 2048 := ⟨q.val, by have := q.isLt; omega⟩
/-- Column `q` of the right half: `q + 1024`. -/
abbrev colR (q : Fin 1024) : Fin 2048 := ⟨q.val + 1024, by have := q.isLt; omega⟩

/-- The product's left operand at output `i`, contraction position `k`: row `i 0`, -/
theorem lhs_row (i : S512x2048.Idx) (k : dot_S512x1024_S1024x2048_S512x2048_1_0_0_1_n_n.contr.Idx) :
    (dot_S512x1024_S1024x2048_S512x2048_1_0_0_1_n_n.lhsIdx i k 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl
/-- column the contraction position; -/
theorem lhs_col (i : S512x2048.Idx) (k : dot_S512x1024_S1024x2048_S512x2048_1_0_0_1_n_n.contr.Idx) :
    (dot_S512x1024_S1024x2048_S512x2048_1_0_0_1_n_n.lhsIdx i k 1).val = (k ⟨0, by decide⟩).val :=
  dot_S512x1024_S1024x2048_S512x2048_1_0_0_1_n_n.lhsIdx_val_of_single rfl i k
/-- its right operand: row the contraction position, -/
theorem rhs_row (i : S512x2048.Idx) (k : dot_S512x1024_S1024x2048_S512x2048_1_0_0_1_n_n.contr.Idx) :
    (dot_S512x1024_S1024x2048_S512x2048_1_0_0_1_n_n.rhsIdx i k 0).val = (k ⟨0, by decide⟩).val :=
  dot_S512x1024_S1024x2048_S512x2048_1_0_0_1_n_n.rhsIdx_val_of_single rfl i k
/-- column `i 1`. -/
theorem rhs_col (i : S512x2048.Idx) (k : dot_S512x1024_S1024x2048_S512x2048_1_0_0_1_n_n.contr.Idx) :
    (dot_S512x1024_S1024x2048_S512x2048_1_0_0_1_n_n.rhsIdx i k 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- The product of a block of rows with the wide matrix, into the zero accumulator, at row `p` and column `j`: the
    sum over the 1024 samples. -/
theorem mm_apply (a : FVec Ideal S512x1024 .bf16) (b : FVec Ideal S1024x2048 .bf16) (p : Fin 512) (j : Fin 2048) :
    matmul dot_S512x1024_S1024x2048_S512x2048_1_0_0_1_n_n none a b (constant (F := Ideal) S512x2048 .f32 0x00000000#32) (ix2 p j)
      = ∑ n : Fin 1024, a (ix2 p n) * b (ix2 n j) := by
  show FloatOps.matmul dot_S512x1024_S1024x2048_S512x2048_1_0_0_1_n_n none a b (constant (F := Ideal) S512x2048 .f32 0x00000000#32) (ix2 p j) = _
  rw [Ideal.matmul_constant_zero_apply,
    ← Equiv.sum_comp (ValueIdx.contrEquiv1 dot_S512x1024_S1024x2048_S512x2048_1_0_0_1_n_n 1024 rfl rfl).symm]
  refine Finset.sum_congr rfl fun n _ => ?_
  have hn := ValueIdx.contrEquiv1_symm_val dot_S512x1024_S1024x2048_S512x2048_1_0_0_1_n_n 1024 rfl rfl n
  have el : dot_S512x1024_S1024x2048_S512x2048_1_0_0_1_n_n.lhsIdx (ix2 p j)
      ((ValueIdx.contrEquiv1 dot_S512x1024_S1024x2048_S512x2048_1_0_0_1_n_n 1024 rfl rfl).symm n) = ix2 p n :=
    funext fun d => Fin.ext (by
      match d with
      | ⟨0, _⟩ => exact lhs_row _ _
      | ⟨1, _⟩ => exact (lhs_col _ _).trans hn)
  have er : dot_S512x1024_S1024x2048_S512x2048_1_0_0_1_n_n.rhsIdx (ix2 p j)
      ((ValueIdx.contrEquiv1 dot_S512x1024_S1024x2048_S512x2048_1_0_0_1_n_n 1024 rfl rfl).symm n) = ix2 n j :=
    funext fun d => Fin.ext (by
      match d with
      | ⟨0, _⟩ => exact (rhs_row _ _).trans hn
      | ⟨1, _⟩ => exact rhs_col _ _)
  rw [el, er]

/-- The signal block's product (the body's first two payloads), at row `p` and column `j`. -/
theorem prod_apply (x : Vec Ideal S512x1024 .f32) (w : Vec Ideal S1024x2048 .bf16) (p : Fin 512) (j : Fin 2048) :
    k0_pay2 x w (ix2 p j) = ∑ n : Fin 1024, x (ix2 p n) * w (ix2 n j) := by
  unfold k0_pay2 k0_pay1
  rw [shapeCast_self, shapeCast_self]
  exact mm_apply _ _ p j

/-- The second product is the same function of its block. -/
theorem prod_apply' (x : Vec Ideal S512x1024 .f32) (w : Vec Ideal S1024x2048 .bf16) (p : Fin 512) (j : Fin 2048) :
    k0_pay3 x w (ix2 p j) = ∑ n : Fin 1024, x (ix2 p n) * w (ix2 n j) := by
  unfold k0_pay3 k0_pay1
  rw [shapeCast_self, shapeCast_self]
  exact mm_apply _ _ p j

/-- The left half of a 512 × 2048 value, at `(p, q)`: column `q`. -/
theorem left_apply (v : FVec Ideal S512x2048 .f32) (p : Fin 512) (q : Fin 1024) :
    extractStridedSlice S512x1024 ![0, 0] v slices_S512x2048_o0_0_S512x1024 (ix2 p q) = v (ix2 p (colL q)) :=
  extractStridedSlice_apply _ v _ (ix2 p q) (ix2 p (colL q)) fun a => by
    match a with
    | ⟨0, _⟩ => show p.val = 0 + p.val; omega
    | ⟨1, _⟩ => show q.val = 0 + q.val; omega

/-- The right half, at `(p, q)`: column `q + 1024`. -/
theorem right_apply (v : FVec Ideal S512x2048 .f32) (p : Fin 512) (q : Fin 1024) :
    extractStridedSlice S512x1024 ![0, 1024] v slices_S512x2048_o0_1024_S512x1024 (ix2 p q) = v (ix2 p (colR q)) :=
  extractStridedSlice_apply _ v _ (ix2 p q) (ix2 p (colR q)) fun a => by
    match a with
    | ⟨0, _⟩ => show p.val = 0 + p.val; omega
    | ⟨1, _⟩ => show q.val + 1024 = 1024 + q.val; omega

/-- A bias row broadcast down the block, at `(p, q)`: the row's entry `q`. -/
theorem bias_apply (b : Vec Ideal S1x1024 .f32) (p : Fin 512) (q : Fin 1024) :
    broadcastTo S512x1024 (shapeCast S1x1024 b shapeCasts_S1x1024_S1x1024) broadcasts_S1x1024_S512x1024 (ix2 p q)
      = b (ix2 (0 : Fin 1) q) := by
  rw [shapeCast_self]
  exact broadcastTo_apply b _ (ix2 p q) (ix2 (0 : Fin 1) q) fun a => by
    match a with
    | ⟨0, _⟩ => show (0 : Nat) = if (1 : Nat) = 1 then 0 else _; rw [if_pos rfl]
    | ⟨1, _⟩ => show q.val = if (1024 : Nat) = 1 then 0 else q.val; rw [if_neg (by decide)]

/-- The first store's value at `(p, q)`. -/
theorem real_apply (xr xi : Vec Ideal S512x1024 .f32) (w : Vec Ideal S1024x2048 .bf16) (br bi : Vec Ideal S1x1024 .f32)
    (p : Fin 512) (q : Fin 1024) :
    k0_pay6 xr xi w br bi (ix2 p q)
      = ((∑ n : Fin 1024, xr (ix2 p n) * w (ix2 n (colL q))) + br (ix2 (0 : Fin 1) q))
        - ((∑ n : Fin 1024, xi (ix2 p n) * w (ix2 n (colR q))) + bi (ix2 (0 : Fin 1) q)) := by
  unfold k0_pay6 k0_pay4 k0_pay5
  show (extractStridedSlice S512x1024 ![0, 0] (k0_pay2 xr w) slices_S512x2048_o0_0_S512x1024 (ix2 p q)
        + broadcastTo S512x1024 (shapeCast S1x1024 br shapeCasts_S1x1024_S1x1024) broadcasts_S1x1024_S512x1024 (ix2 p q))
      - (extractStridedSlice S512x1024 ![0, 1024] (k0_pay3 xi w) slices_S512x2048_o0_1024_S512x1024 (ix2 p q)
        + broadcastTo S512x1024 (shapeCast S1x1024 bi shapeCasts_S1x1024_S1x1024) broadcasts_S1x1024_S512x1024 (ix2 p q)) = _
  rw [left_apply, right_apply, bias_apply, bias_apply, prod_apply, prod_apply']

/-- The second store's value at `(p, q)`. -/
theorem imag_apply (xr xi : Vec Ideal S512x1024 .f32) (w : Vec Ideal S1024x2048 .bf16) (br bi : Vec Ideal S1x1024 .f32)
    (p : Fin 512) (q : Fin 1024) :
    k0_pay7 xr xi w br bi (ix2 p q)
      = ((∑ n : Fin 1024, xr (ix2 p n) * w (ix2 n (colR q))) + bi (ix2 (0 : Fin 1) q))
        + ((∑ n : Fin 1024, xi (ix2 p n) * w (ix2 n (colL q))) + br (ix2 (0 : Fin 1) q)) := by
  unfold k0_pay7 k0_pay4 k0_pay5
  show (extractStridedSlice S512x1024 ![0, 1024] (k0_pay2 xr w) slices_S512x2048_o0_1024_S512x1024 (ix2 p q)
        + broadcastTo S512x1024 (shapeCast S1x1024 bi shapeCasts_S1x1024_S1x1024) broadcasts_S1x1024_S512x1024 (ix2 p q))
      + (extractStridedSlice S512x1024 ![0, 0] (k0_pay3 xi w) slices_S512x2048_o0_0_S512x1024 (ix2 p q)
        + broadcastTo S512x1024 (shapeCast S1x1024 br shapeCasts_S1x1024_S1x1024) broadcasts_S1x1024_S512x1024 (ix2 p q)) = _
  rw [right_apply, left_apply, bias_apply, bias_apply, prod_apply, prod_apply']

/-! ## The two whole arrays of which every block is a restriction

Row `r` of the flattened 32768 × 1024 signal arrays `A0`, `A1` against the columns of the wide matrix `A2`, with the bias
rows `A3`, `A4`: what the 64 grid points write, each its own 512 rows. -/

/-- The flattened real part at row `r`, frequency `q`, from the arrays the kernel's five input windows name. -/
def rowRealAt (A0 A1 : S32768x1024.Idx → EReal) (A2 : S1024x2048.Idx → EReal) (A3 A4 : S1x1024.Idx → EReal)
    (r : Fin 32768) (q : Fin 1024) : EReal :=
  ((∑ n : Fin 1024, A0 (ix2 r n) * A2 (ix2 n (colL q))) + A3 (ix2 (0 : Fin 1) q))
    - ((∑ n : Fin 1024, A1 (ix2 r n) * A2 (ix2 n (colR q))) + A4 (ix2 (0 : Fin 1) q))

/-- The flattened imaginary part at row `r`, frequency `q`. -/
def rowImagAt (A0 A1 : S32768x1024.Idx → EReal) (A2 : S1024x2048.Idx → EReal) (A3 A4 : S1x1024.Idx → EReal)
    (r : Fin 32768) (q : Fin 1024) : EReal :=
  ((∑ n : Fin 1024, A0 (ix2 r n) * A2 (ix2 n (colR q))) + A4 (ix2 (0 : Fin 1) q))
    + ((∑ n : Fin 1024, A1 (ix2 r n) * A2 (ix2 n (colL q))) + A3 (ix2 (0 : Fin 1) q))

/-- The flattened real part as an array. -/
def rowReal (A0 A1 : S32768x1024.Idx → EReal) (A2 : S1024x2048.Idx → EReal) (A3 A4 : S1x1024.Idx → EReal) :
    S32768x1024.Idx → EReal := fun i => rowRealAt A0 A1 A2 A3 A4 (i 0) (i 1)

/-- The flattened imaginary part as an array. -/
def rowImag (A0 A1 : S32768x1024.Idx → EReal) (A2 : S1024x2048.Idx → EReal) (A3 A4 : S1x1024.Idx → EReal) :
    S32768x1024.Idx → EReal := fun i => rowImagAt A0 A1 A2 A3 A4 (i 0) (i 1)

/-- A block whose signal rows are rows of `A0`, `A1` (block row `p` the array's row `r`) and whose matrix and bias rows
    are the whole `A2`, `A3`, `A4`: the first store's entry `(p, q)` is the flattened real part's entry `(r, q)`. -/
theorem point_real (A0 A1 : S32768x1024.Idx → EReal) (A2 : S1024x2048.Idx → EReal) (A3 A4 : S1x1024.Idx → EReal)
    (x0 x1 : Vec Ideal S512x1024 .f32) (x2 : Vec Ideal S1024x2048 .bf16) (x3 x4 : Vec Ideal S1x1024 .f32)
    (p : Fin 512) (q : Fin 1024) (r : Fin 32768)
    (h0 : ∀ n : Fin 1024, x0 (ix2 p n) = A0 (ix2 r n)) (h1 : ∀ n : Fin 1024, x1 (ix2 p n) = A1 (ix2 r n))
    (h2 : x2 = A2) (h3 : x3 = A3) (h4 : x4 = A4) :
    k0_pay6 x0 x1 x2 x3 x4 (ix2 p q) = rowRealAt A0 A1 A2 A3 A4 r q := by
  subst h2 h3 h4
  rw [real_apply]
  unfold rowRealAt
  simp only [h0, h1]

/-- The same for the second store and the flattened imaginary part. -/
theorem point_imag (A0 A1 : S32768x1024.Idx → EReal) (A2 : S1024x2048.Idx → EReal) (A3 A4 : S1x1024.Idx → EReal)
    (x0 x1 : Vec Ideal S512x1024 .f32) (x2 : Vec Ideal S1024x2048 .bf16) (x3 x4 : Vec Ideal S1x1024 .f32)
    (p : Fin 512) (q : Fin 1024) (r : Fin 32768)
    (h0 : ∀ n : Fin 1024, x0 (ix2 p n) = A0 (ix2 r n)) (h1 : ∀ n : Fin 1024, x1 (ix2 p n) = A1 (ix2 r n))
    (h2 : x2 = A2) (h3 : x3 = A3) (h4 : x4 = A4) :
    k0_pay7 x0 x1 x2 x3 x4 (ix2 p q) = rowImagAt A0 A1 A2 A3 A4 r q := by
  subst h2 h3 h4
  rw [imag_apply]
  unfold rowImagAt
  simp only [h0, h1]

end Cert.KernelIdeal.Block

end
-- ==== Proof.Rows.lean ====
/-
  From blocks to arrays.

  The grid has 64 points. At point `t` the two signal windows hold rows `512 t … 512 t + 511` of the flattened signal
  arrays, the matrix and bias windows hold their whole arrays (their block index never moves), and the two output
  windows are written back to rows `512 t … 512 t + 511` of the two result arrays. So what point `t` writes back is the
  restriction to those rows of ONE function of the arrays the region finds — the flattened real and imaginary parts of
  `BlockValue` —, every row `r` lies in the block of point `r / 512`, and each result array ends holding that function.
-/
import proofs.«158478_j75677323756101_2_alg».proof.Proof.Gen.KernelIdeal.Frame
import proofs.«158478_j75677323756101_2_alg».proof.Proof.BlockValue
import Idealize.ShloMosaic.Lib.Pipeline.Value
import Idealize.ShloMosaic.Lib.ValueIdx
import Idealize.ShloMosaic.PureOps.Ideal

noncomputable section

namespace Cert.KernelIdeal.Rows

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The whole-block rectangle's offsets are zero. -/
theorem hz : (![0, 0] : Fin 2 → Nat) = fun _ => 0 := funext fun a => by fin_cases a <;> rfl

/-- The printed index maps over the 64 points: the signal and result windows are at block `(t, 0)`, the matrix and
    bias windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A point's number is below 64. -/
theorem lt64 (t : Fin cfg0.N) : t.val < 64 := lt_of_lt_of_eq t.isLt N_0

/-- The array row under row `p` of point `t`'s block. -/
abbrev rowAt (t : Fin cfg0.N) (p : Fin 512) : Fin 32768 :=
  ⟨t.val * 512 + p.val, by have := lt64 t; have := p.isLt; omega⟩

/-! ## The input windows' blocks -/

/-- Row `p` of signal window 0's block at point `t` is row `512 t + p` of its array. -/
theorem sig0_apply (c : Dev nD) (t : Fin cfg0.N) (p : Fin 512) (n : Fin 1024) :
    (iblk m c 0 t : Vec Ideal S512x1024 .f32) (ix2 p n) = (V m c main_v0 : S32768x1024.Idx → EReal) (ix2 (rowAt t p) n) := by
  obtain ⟨e00, e01, e10, e11, -⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = t.val * 512 + p.val; rw [e00]; omega
  | ⟨1, _⟩ => show win0_0.index t (1 : Fin 2) * 1024 + 1 * n.val = n.val; rw [e01]; omega

/-- Row `p` of signal window 1's block at point `t` is row `512 t + p` of its array. -/
theorem sig1_apply (c : Dev nD) (t : Fin cfg0.N) (p : Fin 512) (n : Fin 1024) :
    (iblk m c 1 t : Vec Ideal S512x1024 .f32) (ix2 p n) = (V m c main_v1 : S32768x1024.Idx → EReal) (ix2 (rowAt t p) n) := by
  obtain ⟨e00, e01, e10, e11, -⟩ := idx_facts t
  unfold iblk
  rw [View.read_apply]
  show V m c main_v1 _ = V m c main_v1 _
  congr 1
  funext a
  apply Fin.ext
  match a with
  | ⟨0, _⟩ => show win0_1.index t (0 : Fin 2) * 512 + 1 * p.val = t.val * 512 + p.val; rw [e10]; omega
  | ⟨1, _⟩ => show win0_1.index t (1 : Fin 2) * 1024 + 1 * n.val = n.val; rw [e11]; omega

/-- Window 2's block is its whole array at every point: its block index never moves. -/
theorem w_eq (c : Dev nD) (t : Fin cfg0.N) :
    (iblk m c 2 t : Vec Ideal S1024x2048 .bf16) = (V m c main_v6 : S1024x2048.Idx → EReal) := by
  obtain ⟨-, -, -, -, z0, z1, -⟩ := idx_facts t
  funext y
  unfold iblk
  rw [View.read_apply]
  show V m c main_v6 _ = V m c main_v6 y
  congr 1
  funext a
  apply Fin.ext
  match a with
  | ⟨0, _⟩ => show win0_2.index t (0 : Fin 2) * 1024 + 1 * (y 0).val = (y 0).val; rw [z0]; omega
  | ⟨1, _⟩ => show win0_2.index t (1 : Fin 2) * 2048 + 1 * (y 1).val = (y 1).val; rw [z1]; omega

/-- Window 3's block is its whole array at every point: its block index never moves. -/
theorem br_eq (c : Dev nD) (t : Fin cfg0.N) :
    (iblk m c 3 t : Vec Ideal S1x1024 .f32) = (V m c main_v7 : S1x1024.Idx → EReal) := by
  obtain ⟨-, -, -, -, -, -, z0, z1, -⟩ := idx_facts t
  funext y
  unfold iblk
  rw [View.read_apply]
  show V m c main_v7 _ = V m c main_v7 y
  congr 1
  funext a
  apply Fin.ext
  match a with
  | ⟨0, _⟩ => show win0_3.index t (0 : Fin 2) * 1 + 1 * (y 0).val = (y 0).val; rw [z0]; omega
  | ⟨1, _⟩ => show win0_3.index t (1 : Fin 2) * 1024 + 1 * (y 1).val = (y 1).val; rw [z1]; omega

/-- Window 4's block is its whole array at every point: its block index never moves. -/
theorem bi_eq (c : Dev nD) (t : Fin cfg0.N) :
    (iblk m c 4 t : Vec Ideal S1x1024 .f32) = (V m c main_v8 : S1x1024.Idx → EReal) := by
  obtain ⟨-, -, -, -, -, -, -, -, z0, z1, -⟩ := idx_facts t
  funext y
  unfold iblk
  rw [View.read_apply]
  show V m c main_v8 _ = V m c main_v8 y
  congr 1
  funext a
  apply Fin.ext
  match a with
  | ⟨0, _⟩ => show win0_4.index t (0 : Fin 2) * 1 + 1 * (y 0).val = (y 0).val; rw [z0]; omega
  | ⟨1, _⟩ => show win0_4.index t (1 : Fin 2) * 1024 + 1 * (y 1).val = (y 1).val; rw [z1]; omega

/-! ## The real part's array -/

/-- What point `t` writes back to the real part's array: rows `512 t … 512 t + 511` of the flattened real part. -/
theorem flushed_real (c : Dev nD) (t : Fin cfg0.N) :
    (dats m 0 c).flushed 5 t = ((cfg0.win 5).blk t).view.read (Elt Ideal)
      (rowReal (V m c main_v0) (V m c main_v1) (V m c main_v6) (V m c main_v7) (V m c main_v8)) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1024x2048) hz, View.ld_unit_zero (S := S1x1024) hz]
  obtain ⟨-, -, -, -, -, -, -, -, -, -, e50, e51, e60, e61⟩ := idx_facts t
  funext j
  obtain ⟨p, q, rfl⟩ : ∃ (p : Fin 512) (q : Fin 1024), j = ix2 p q := ⟨j 0, j 1, eq_ix2 j⟩
  show k0_pay6 (iblk m c 0 t) (iblk m c 1 t) (iblk m c 2 t) (iblk m c 3 t) (iblk m c 4 t) (ix2 p q)
      = rowRealAt (V m c main_v0) (V m c main_v1) (V m c main_v6) (V m c main_v7) (V m c main_v8)
          ((((cfg0.win 5).blk t).view.emb (ix2 p q)) 0) ((((cfg0.win 5).blk t).view.emb (ix2 p q)) 1)
  have er : (((cfg0.win 5).blk t).view.emb (ix2 p q)) 0 = rowAt t p := Fin.ext (by
    show win0_5.index t (0 : Fin 2) * 512 + 1 * p.val = t.val * 512 + p.val
    rw [e50]; omega)
  have ec : (((cfg0.win 5).blk t).view.emb (ix2 p q)) 1 = q := Fin.ext (by
    show win0_5.index t (1 : Fin 2) * 1024 + 1 * q.val = q.val
    rw [e51]; omega)
  rw [er, ec]
  exact point_real (V m c main_v0) (V m c main_v1) (V m c main_v6) (V m c main_v7) (V m c main_v8)
    (iblk m c 0 t) (iblk m c 1 t) (iblk m c 2 t) (iblk m c 3 t) (iblk m c 4 t) p q (rowAt t p)
    (sig0_apply m c t p) (sig1_apply m c t p) (w_eq m c t) (br_eq m c t) (bi_eq m c t)

/-- An index of the real part's array is in point `t`'s block iff each coordinate is in the block's range on its axis. -/
theorem mem_blk_real (t : Fin cfg0.N) (i : S32768x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v9_0).slice (win0_5.rect t)).set ↔ _
  rw [View.set_slice_whole, Rect.mem_set_unit]
  exact Iff.rfl

/-- Row `r` of the real part's array is in the block of point `r / 512`, which writes back. -/
theorem cover_real (i : S32768x1024.Idx) :
    ∃ t : Fin cfg0.N, (cfg0.win 5).flush t = true ∧ i ∈ ((cfg0.win 5).blk t).view.set := by
  have h0 : (i 0).val < 32768 := idx2_lt0 i
  have h1 : (i 1).val < 1024 := idx2_lt1 i
  have hN : cfg0.N = 64 := N_0
  obtain ⟨t, ht⟩ : ∃ t : Fin cfg0.N, t.val = (i 0).val / 512 := ⟨⟨(i 0).val / 512, by rw [hN]; omega⟩, rfl⟩
  obtain ⟨-, -, -, -, -, -, -, -, -, -, e50, e51, e60, e61⟩ := idx_facts t
  refine ⟨t, flush0_5 t, ?_⟩
  rw [mem_blk_real]
  intro a
  match a with
  | ⟨0, _⟩ =>
    show win0_5.index t (0 : Fin 2) * 512 ≤ (i 0).val ∧ (i 0).val < win0_5.index t (0 : Fin 2) * 512 + 512
    rw [e50, ht]; omega
  | ⟨1, _⟩ =>
    show win0_5.index t (1 : Fin 2) * 1024 ≤ (i 1).val ∧ (i 1).val < win0_5.index t (1 : Fin 2) * 1024 + 1024
    rw [e51]; omega

/-- The real part's array after the region: the flattened real part of the arrays the region finds. -/
theorem final_real (c : Dev nD) : (dats m 0 c).arrAt 5 cfg0.N
    = rowReal (V m c main_v0) (V m c main_v1) (V m c main_v6) (V m c main_v7) (V m c main_v8) :=
  (dats m 0 c).arrAt_eq_of_cover 5 _ (fun t _ => flushed_real m c t) cover_real

/-! ## The imaginary part's array -/

/-- What point `t` writes back to the imag part's array: rows `512 t … 512 t + 511` of the flattened imag part. -/
theorem flushed_imag (c : Dev nD) (t : Fin cfg0.N) :
    (dats m 0 c).flushed 6 t = ((cfg0.win 6).blk t).view.read (Elt Ideal)
      (rowImag (V m c main_v0) (V m c main_v1) (V m c main_v6) (V m c main_v7) (V m c main_v8)) := by
  show (cfg0.win 6).cut (grid0.coords t) ((dats m 0 c).after 6 t) = _
  rw [after0_6]
  unfold out0_6
  rw [View.canon_unit_zero hz]
  simp only [View.ld_unit_zero (S := S512x1024) hz, View.ld_unit_zero (S := S1024x2048) hz, View.ld_unit_zero (S := S1x1024) hz]
  obtain ⟨-, -, -, -, -, -, -, -, -, -, e50, e51, e60, e61⟩ := idx_facts t
  funext j
  obtain ⟨p, q, rfl⟩ : ∃ (p : Fin 512) (q : Fin 1024), j = ix2 p q := ⟨j 0, j 1, eq_ix2 j⟩
  show k0_pay7 (iblk m c 0 t) (iblk m c 1 t) (iblk m c 2 t) (iblk m c 3 t) (iblk m c 4 t) (ix2 p q)
      = rowImagAt (V m c main_v0) (V m c main_v1) (V m c main_v6) (V m c main_v7) (V m c main_v8)
          ((((cfg0.win 6).blk t).view.emb (ix2 p q)) 0) ((((cfg0.win 6).blk t).view.emb (ix2 p q)) 1)
  have er : (((cfg0.win 6).blk t).view.emb (ix2 p q)) 0 = rowAt t p := Fin.ext (by
    show win0_6.index t (0 : Fin 2) * 512 + 1 * p.val = t.val * 512 + p.val
    rw [e60]; omega)
  have ec : (((cfg0.win 6).blk t).view.emb (ix2 p q)) 1 = q := Fin.ext (by
    show win0_6.index t (1 : Fin 2) * 1024 + 1 * q.val = q.val
    rw [e61]; omega)
  rw [er, ec]
  exact point_imag (V m c main_v0) (V m c main_v1) (V m c main_v6) (V m c main_v7) (V m c main_v8)
    (iblk m c 0 t) (iblk m c 1 t) (iblk m c 2 t) (iblk m c 3 t) (iblk m c 4 t) p q (rowAt t p)
    (sig0_apply m c t p) (sig1_apply m c t p) (w_eq m c t) (br_eq m c t) (bi_eq m c t)

/-- An index of the imag part's array is in point `t`'s block iff each coordinate is in the block's range on its axis. -/
theorem mem_blk_imag (t : Fin cfg0.N) (i : S32768x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v9_1).slice (win0_6.rect t)).set ↔ _
  rw [View.set_slice_whole, Rect.mem_set_unit]
  exact Iff.rfl

/-- Row `r` of the imag part's array is in the block of point `r / 512`, which writes back. -/
theorem cover_imag (i : S32768x1024.Idx) :
    ∃ t : Fin cfg0.N, (cfg0.win 6).flush t = true ∧ i ∈ ((cfg0.win 6).blk t).view.set := by
  have h0 : (i 0).val < 32768 := idx2_lt0 i
  have h1 : (i 1).val < 1024 := idx2_lt1 i
  have hN : cfg0.N = 64 := N_0
  obtain ⟨t, ht⟩ : ∃ t : Fin cfg0.N, t.val = (i 0).val / 512 := ⟨⟨(i 0).val / 512, by rw [hN]; omega⟩, rfl⟩
  obtain ⟨-, -, -, -, -, -, -, -, -, -, e50, e51, e60, e61⟩ := idx_facts t
  refine ⟨t, flush0_6 t, ?_⟩
  rw [mem_blk_imag]
  intro a
  match a with
  | ⟨0, _⟩ =>
    show win0_6.index t (0 : Fin 2) * 512 ≤ (i 0).val ∧ (i 0).val < win0_6.index t (0 : Fin 2) * 512 + 512
    rw [e60, ht]; omega
  | ⟨1, _⟩ =>
    show win0_6.index t (1 : Fin 2) * 1024 ≤ (i 1).val ∧ (i 1).val < win0_6.index t (1 : Fin 2) * 1024 + 1024
    rw [e61]; omega

/-- The imag part's array after the region: the flattened imag part of the arrays the region finds. -/
theorem final_imag (c : Dev nD) : (dats m 0 c).arrAt 6 cfg0.N
    = rowImag (V m c main_v0) (V m c main_v1) (V m c main_v6) (V m c main_v7) (V m c main_v8) :=
  (dats m 0 c).arrAt_eq_of_cover 6 _ (fun t _ => flushed_imag m c t) cover_imag

end Cert.KernelIdeal.Rows

end
-- ==== Proof.Operands.lean ====
/-
  What the five input windows' arrays hold when the region is entered, and what the flattened result means.

  The host lines before the region only re-lay the arguments: each signal array [8, 4096, 1024] is flattened to
  [32768, 1024], so row `r` is frame `(r / 4096, r % 4096)`; the two weight matrices are transposed, changed of format (the
  identity on the extended reals) and set side by side, so the wide matrix's entry `(n, j)` is `w_r[j, n]` for `j < 1024` and
  `w_i[j − 1024, n]` otherwise; each bias vector becomes one row. Substituting these into the flattened arrays of
  `BlockValue` gives the specification's sums at frame `(r / 4096, r % 4096)`, and un-flattening `r = b · 4096 + f` gives
  the specification itself.
-/
import proofs.«158478_j75677323756101_2_alg».proof.Proof.Gen.KernelIdeal.Frame
import proofs.«158478_j75677323756101_2_alg».proof.Proof.BlockValue
import proofs.«158478_j75677323756101_2_alg».proof.Proof.DftSpec
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Operands

open Cert.KernelIdeal Cert.KernelIdeal.Gen Cert.KernelIdeal.Block
open Idealize.ShloMosaic Idealize.ShloMosaic.TcCoe Idealize.SL.Sem Idealize.ShloMosaic.StableHlo Idealize.ShloMosaic.ValueIdx

/-! ## The re-laid arguments, read at an index -/

/-- The batch of flattened row `r`. -/
abbrev batchOf (r : Fin 32768) : Fin 8 := ⟨r.val / 4096, by have := r.isLt; omega⟩
/-- The frame of flattened row `r` within its batch. -/
abbrev frameOf (r : Fin 32768) : Fin 4096 := ⟨r.val % 4096, by omega⟩

/-- A flattened signal array at row `r`, sample `n`: frame `(r / 4096, r % 4096)`. -/
theorem flat_apply (x : S8x4096x1024.Idx → EReal) (r : Fin 32768) (n : Fin 1024) :
    shapeCast S32768x1024 x shapeCasts_S8x4096x1024_S32768x1024 (ix2 r n) = x (ix3 (batchOf r) (frameOf r) n) :=
  shapeCast_apply x _ (ix2 r n) (ix3 (batchOf r) (frameOf r) n) (by
    rw [Shape.rowMajor_val_three, Shape.rowMajor_val_two]
    show (r.val / 4096 * 4096 + r.val % 4096) * 1024 + n.val = r.val * 1024 + n.val
    omega)

/-- A transposed matrix in the other format at `(n, k)`: the matrix at `(k, n)`. -/
theorem transposed_apply (w : S1024x1024.Idx → EReal) (n k : Fin 1024) :
    truncf (F := Ideal) .bf16 (transpose S1024x1024 [1, 0] w transposes_S1024x1024_S1024x1024_1_0) bitsLt_bf16_f32 (ix2 n k)
      = w (ix2 k n) := by
  show transpose S1024x1024 [1, 0] w transposes_S1024x1024_S1024x1024_1_0 (ix2 n k) = _
  exact transpose_apply _ w _ (ix2 n k) (ix2 k n) fun b => by
    match b with
    | ⟨0, _⟩ => rfl
    | ⟨1, _⟩ => rfl

/-- The wide matrix of the two transposed weights, as the host builds it. -/
abbrev wide (wr wi : S1024x1024.Idx → EReal) : S1024x2048.Idx → EReal :=
  concatenate S1024x2048 1
    [⟨S1024x1024, truncf (F := Ideal) .bf16 (transpose S1024x1024 [1, 0] wr transposes_S1024x1024_S1024x1024_1_0) bitsLt_bf16_f32⟩,
     ⟨S1024x1024, truncf (F := Ideal) .bf16 (transpose S1024x1024 [1, 0] wi transposes_S1024x1024_S1024x1024_1_0) bitsLt_bf16_f32⟩]
    concatenates_S1024x1024_S1024x1024_S1024x2048_d1

/-- Its left half is `w_rᵀ`: `(n, q) ↦ w_r[q, n]`. -/
theorem wide_left (wr wi : S1024x1024.Idx → EReal) (n q : Fin 1024) : wide wr wi (ix2 n (colL q)) = wr (ix2 q n) := by
  unfold wide
  refine (concatenate_pair_apply_left (t := S1024x2048) (s₁ := S1024x1024) (s₂ := S1024x1024) (1 : Fin S1024x2048.rank) _ _ _
    (ix2 n (colL q)) rfl (ix2 n q) fun b => ?_).trans
    (transposed_apply wr n q)
  match b with
  | ⟨0, _⟩ => rfl
  | ⟨1, _⟩ => rfl

/-- Its right half is `w_iᵀ`: `(n, q + 1024) ↦ w_i[q, n]`. -/
theorem wide_right (wr wi : S1024x1024.Idx → EReal) (n q : Fin 1024) : wide wr wi (ix2 n (colR q)) = wi (ix2 q n) := by
  unfold wide
  refine (concatenate_pair_apply_right (t := S1024x2048) (s₁ := S1024x1024) (s₂ := S1024x1024) (1 : Fin S1024x2048.rank) _ _ _
    (ix2 n (colR q)) rfl rfl (ix2 n q) (fun b hb => ?_) ?_).trans
    (transposed_apply wi n q)
  · match b with
    | ⟨0, _⟩ => rfl
    | ⟨1, _⟩ => exact absurd rfl hb
  · show q.val + 1024 = q.val + 1024
    rfl

/-- A bias vector as one row, at `(0, q)`. -/
theorem row_apply (b : S1024.Idx → EReal) (q : Fin 1024) :
    shapeCast S1x1024 b shapeCasts_S1024_S1x1024 (ix2 (0 : Fin 1) q) = b (ix1 q) :=
  shapeCast_apply b _ (ix2 (0 : Fin 1) q) (ix1 q) (by
    rw [Shape.rowMajor_val_one, Shape.rowMajor_val_two]
    show q.val = 0 * 1024 + q.val
    omega)

/-! ## The flattened results are the specification at the un-flattened index -/

/-- The flattened real part over the re-laid arguments, at row `r`, frequency `q`. -/
theorem rowReal_apply (xr xi : S8x4096x1024.Idx → EReal) (wr wi : S1024x1024.Idx → EReal) (br bi : S1024.Idx → EReal)
    (r : Fin 32768) (q : Fin 1024) :
    rowRealAt (shapeCast S32768x1024 xr shapeCasts_S8x4096x1024_S32768x1024) (shapeCast S32768x1024 xi shapeCasts_S8x4096x1024_S32768x1024)
        (wide wr wi) (shapeCast S1x1024 br shapeCasts_S1024_S1x1024) (shapeCast S1x1024 bi shapeCasts_S1024_S1x1024) r q
      = Cert.Dft.realAt xr xi wr wi br bi (batchOf r) (frameOf r) q := by
  unfold rowRealAt Cert.Dft.realAt Cert.Dft.rowDot
  show ((∑ n : Fin 1024, _ * wide wr wi (ix2 n (colL q))) + shapeCast S1x1024 br shapeCasts_S1024_S1x1024 (ix2 (0 : Fin 1) q))
      - ((∑ n : Fin 1024, _ * wide wr wi (ix2 n (colR q))) + shapeCast S1x1024 bi shapeCasts_S1024_S1x1024 (ix2 (0 : Fin 1) q)) = _
  rw [row_apply, row_apply]
  congr 1
  · congr 1
    exact Finset.sum_congr rfl fun n _ => by rw [flat_apply, wide_left]
  · congr 1
    exact Finset.sum_congr rfl fun n _ => by rw [flat_apply, wide_right]

/-- The flattened imaginary part over the re-laid arguments, at row `r`, frequency `q`. -/
theorem rowImag_apply (xr xi : S8x4096x1024.Idx → EReal) (wr wi : S1024x1024.Idx → EReal) (br bi : S1024.Idx → EReal)
    (r : Fin 32768) (q : Fin 1024) :
    rowImagAt (shapeCast S32768x1024 xr shapeCasts_S8x4096x1024_S32768x1024) (shapeCast S32768x1024 xi shapeCasts_S8x4096x1024_S32768x1024)
        (wide wr wi) (shapeCast S1x1024 br shapeCasts_S1024_S1x1024) (shapeCast S1x1024 bi shapeCasts_S1024_S1x1024) r q
      = Cert.Dft.imagAt xr xi wr wi br bi (batchOf r) (frameOf r) q := by
  unfold rowImagAt Cert.Dft.imagAt Cert.Dft.rowDot
  show ((∑ n : Fin 1024, _ * wide wr wi (ix2 n (colR q))) + shapeCast S1x1024 bi shapeCasts_S1024_S1x1024 (ix2 (0 : Fin 1) q))
      + ((∑ n : Fin 1024, _ * wide wr wi (ix2 n (colL q))) + shapeCast S1x1024 br shapeCasts_S1024_S1x1024 (ix2 (0 : Fin 1) q)) = _
  rw [row_apply, row_apply]
  congr 1
  · congr 1
    exact Finset.sum_congr rfl fun n _ => by rw [flat_apply, wide_right]
  · congr 1
    exact Finset.sum_congr rfl fun n _ => by rw [flat_apply, wide_left]

/-- Un-flattening: a [32768, 1024] array whose row `r` holds `g (r / 4096) (r % 4096)`, seen as [8, 4096, 1024], holds
    `g b f` at `(b, f, ·)`. -/
theorem unflat_apply (A : S32768x1024.Idx → EReal) (g : Fin 8 → Fin 4096 → Fin 1024 → EReal)
    (hA : ∀ (r : Fin 32768) (q : Fin 1024), A (ix2 r q) = g (batchOf r) (frameOf r) q)
    (b : Fin 8) (f : Fin 4096) (k : Fin 1024) :
    shapeCast S8x4096x1024 A shapeCasts_S32768x1024_S8x4096x1024 (ix3 b f k) = g b f k := by
  have hb : b.val < 8 := b.isLt
  have hf : f.val < 4096 := f.isLt
  have hr : b.val * 4096 + f.val < 32768 := by omega
  refine (shapeCast_apply A _ (ix3 b f k) (ix2 (⟨b.val * 4096 + f.val, hr⟩ : Fin 32768) k) (by
    rw [Shape.rowMajor_val_three, Shape.rowMajor_val_two]
    show (b.val * 4096 + f.val) * 1024 + k.val = (b.val * 4096 + f.val) * 1024 + k.val
    rfl)).trans ?_
  rw [hA]
  have e0 : batchOf ⟨b.val * 4096 + f.val, hr⟩ = b := Fin.ext (by show (b.val * 4096 + f.val) / 4096 = b.val; omega)
  have e1 : frameOf ⟨b.val * 4096 + f.val, hr⟩ = f := Fin.ext (by show (b.val * 4096 + f.val) % 4096 = f.val; omega)
  rw [e0, e1]

/-- The same, as arrays. -/
theorem unflat_eq (A : S32768x1024.Idx → EReal) (g : Fin 8 → Fin 4096 → Fin 1024 → EReal)
    (hA : ∀ (r : Fin 32768) (q : Fin 1024), A (ix2 r q) = g (batchOf r) (frameOf r) q) :
    shapeCast S8x4096x1024 A shapeCasts_S32768x1024_S8x4096x1024 = fun i => g (i 0) (i 1) (i 2) := by
  funext i
  obtain ⟨b, f, k, rfl⟩ : ∃ (b : Fin 8) (f : Fin 4096) (k : Fin 1024), i = ix3 b f k := ⟨i 0, i 1, i 2, eq_ix3 i⟩
  exact unflat_apply A g hA b f k

/-! ## The arrays as the region finds them -/

variable (m : (ℓ : Loc nD τ sig) → Buf (Elt Ideal) ℓ)

/-- Window 0's array: the first signal array, flattened. -/
theorem V_xr (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results
  rfl

/-- Window 1's array: the second signal array, flattened. -/
theorem V_xi (c : Dev nD) : (V m c main_v1 : S32768x1024.Idx → EReal)
    = shapeCast S32768x1024 (m ((c : Thread nD τ).loc main_arg1)) shapeCasts_S8x4096x1024_S32768x1024 := by
  show StableHlo.after hostOps0 (fun b => m (c, b)) (Proc.devRef .tc main_v1) = _
  after_results
  rfl

/-- Window 2's array: the wide matrix of the two transposed weights. -/
theorem V_w (c : Dev nD) : (V m c main_v6 : S1024x2048.Idx → EReal)
    = wide (m ((c : Thread nD τ).loc main_arg2)) (m ((c : Thread nD τ).loc main_arg3)) := by
  show StableHlo.after hostOps0 (fun b => m (c, b)) (Proc.devRef .tc main_v6) = _
  after_results

/-- Window 3's array: the real bias as a row. -/
theorem V_br (c : Dev nD) : (V m c main_v7 : S1x1024.Idx → EReal)
    = shapeCast S1x1024 (m ((c : Thread nD τ).loc main_arg4)) shapeCasts_S1024_S1x1024 := by
  show StableHlo.after hostOps0 (fun b => m (c, b)) (Proc.devRef .tc main_v7) = _
  after_results
  rfl

/-- Window 4's array: the imaginary bias as a row. -/
theorem V_bi (c : Dev nD) : (V m c main_v8 : S1x1024.Idx → EReal)
    = shapeCast S1x1024 (m ((c : Thread nD τ).loc main_arg5)) shapeCasts_S1024_S1x1024 := by
  show StableHlo.after hostOps0 (fun b => m (c, b)) (Proc.devRef .tc main_v8) = _
  after_results
  rfl

end Cert.KernelIdeal.Operands

end
-- ==== Proof.KernelRun.lean ====
/-
  The kernel's run, read at the specification.

  After the region the two result arrays hold the flattened real and imaginary parts of the arrays the region found
  (`Rows`); those arrays are the re-laid arguments, so the flattened parts are the specification's sums at frame
  `(r / 4096, r % 4096)` (`Operands`); and the two host lines after the region only see each [32768, 1024] array as
  [8, 4096, 1024], which un-flattens `r = b · 4096 + f`. So every weakly fair execution of the idealized kernel ends with
  its two results at the specification's real and imaginary parts of its six arguments, the arguments unchanged.
-/
import proofs.«158478_j75677323756101_2_alg».proof.Proof.Rows
import proofs.«158478_j75677323756101_2_alg».proof.Proof.Operands

noncomputable section

namespace Cert.KernelIdeal.IsDft

open Cert.KernelIdeal Cert.KernelIdeal.Gen Cert.KernelIdeal.Block
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The real result: the lines after the region see the real part's flattened array as [8, 4096, 1024], which is the
    specification's real part of the six arguments. -/
theorem result_real (c : Dev nD) :
    Pipeline.afterTail₀ cfgs (dats m) 0 (V0 m) [hostOps1] c main_v10
      = Cert.Dft.real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hA : Pipeline.withArrays spec0 c (V0 m c) (fun w => (dats m 0 c).arrAt w cfg0.N) (Proc.devRef .tc main_v9_0)
      = rowReal (V m c main_v0) (V m c main_v1) (V m c main_v6) (V m c main_v7) (V m c main_v8) :=
    (Pipeline.withArrays_arr spec0 launch0.win.arr_inj c _ _ 5).trans (Rows.final_real m c)
  unfold Pipeline.afterTail₀
  show StableHlo.after hostOps1 _ (Proc.devRef .tc main_v10) = _
  after_results
  show shapeCast S8x4096x1024 (Pipeline.withArrays spec0 c (V0 m c) (fun w => (dats m 0 c).arrAt w cfg0.N) (Proc.devRef .tc main_v9_0))
      shapeCasts_S32768x1024_S8x4096x1024 = _
  rw [hA, Operands.V_xr, Operands.V_xi, Operands.V_w, Operands.V_br, Operands.V_bi]
  exact Operands.unflat_eq _ (Cert.Dft.realAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    (fun r q => Operands.rowReal_apply _ _ _ _ _ _ r q)

/-- The imag result: the lines after the region see the imag part's flattened array as [8, 4096, 1024], which is the
    specification's imag part of the six arguments. -/
theorem result_imag (c : Dev nD) :
    Pipeline.afterTail₀ cfgs (dats m) 0 (V0 m) [hostOps1] c main_v11
      = Cert.Dft.imag (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hA : Pipeline.withArrays spec0 c (V0 m c) (fun w => (dats m 0 c).arrAt w cfg0.N) (Proc.devRef .tc main_v9_1)
      = rowImag (V m c main_v0) (V m c main_v1) (V m c main_v6) (V m c main_v7) (V m c main_v8) :=
    (Pipeline.withArrays_arr spec0 launch0.win.arr_inj c _ _ 6).trans (Rows.final_imag m c)
  unfold Pipeline.afterTail₀
  show StableHlo.after hostOps1 _ (Proc.devRef .tc main_v11) = _
  after_results
  show shapeCast S8x4096x1024 (Pipeline.withArrays spec0 c (V0 m c) (fun w => (dats m 0 c).arrAt w cfg0.N) (Proc.devRef .tc main_v9_1))
      shapeCasts_S32768x1024_S8x4096x1024 = _
  rw [hA, Operands.V_xr, Operands.V_xi, Operands.V_w, Operands.V_br, Operands.V_bi]
  exact Operands.unflat_eq _ (Cert.Dft.imagAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    (fun r q => Operands.rowImag_apply _ _ _ _ _ _ r q)

/-- The frame run re-posted: the two results at the specification, the six arguments as launched. -/
theorem run : θ_run defs (onTc (τ := τ) (main (F := Ideal))) ⟨m, fun _ => 0, ρ⟩ fun r => ∀ c : Dev nD,
      r.2.mem ((c.tc : Thread nD τ).loc main_v10) = Cert.Dft.real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v11) = Cert.Dft.imag (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v10 (Pipeline.mem_restRefs_of main_v10 (by decide) (by decide))).trans (result_real m c),
      ((h c).2 main_v11 (Pipeline.mem_restRefs_of main_v11 (by decide) (by decide))).trans (result_imag m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.IsDft

end
-- ==== Proof.lean ====
/-
  A discrete Fourier transform of 8 × 4096 frames of 1024 complex samples, computed as four real matrix products:
  with `conv_r(v) = v w_rᵀ + b_r` and `conv_i(v) = v w_iᵀ + b_i`,

    real = conv_r(x_r) − conv_i(x_i),    imag = conv_i(x_r) + conv_r(x_i).

  The kernel flattens the frames to 32768 rows, sets `w_rᵀ` and `w_iᵀ` side by side in one 1024 × 2048 matrix, and at each of
  64 grid points multiplies 512 rows of `x_r` and of `x_i` by that matrix, takes the left and right halves of the two
  products, adds the bias rows and combines; the reference takes the four products of the [8, 4096, 1024] arrays with
  the [1024, 1024] matrices directly. Read at the ideal instance — the change of format before the kernel's products is
  the identity, a product into a zero accumulator is the plain sum over the 1024 samples — both programs compute, at
  every frame `(b, f)` and frequency `k`,

    real[b, f, k] = (Σ_n x_r[b, f, n] · w_r[k, n] + b_r[k]) − (Σ_n x_i[b, f, n] · w_i[k, n] + b_i[k])
    imag[b, f, k] = (Σ_n x_r[b, f, n] · w_i[k, n] + b_i[k]) + (Σ_n x_i[b, f, n] · w_r[k, n] + b_r[k])

  with the same sums in the same grouping: the two sides differ only in where an entry is stored (the flattening
  `r = b · 4096 + f`, the transposition of the weights, the column `k` or `k + 1024` of the wide matrix, the block of 512
  rows a grid point owns). No law of the extended reals is used beyond reading each operation at an index, so the
  precondition that the inputs are finite is never opened.

  `DftSpec` states the two formulas; `RefIsDft` reads the reference at an index; `BlockValue` reads the kernel body's two
  stores; `Rows` goes from the 64 blocks to the flattened arrays; `Operands` reads the re-laid arguments and un-flattens;
  `KernelRun` puts the kernel's run at the specification. Below: the three frames, the (empty) idealization ledger, and
  the equality of results.
-/
import proofs.«158478_j75677323756101_2_alg».proof.Defs
import proofs.«158478_j75677323756101_2_alg».proof.Proof.Gen.Kernel
import proofs.«158478_j75677323756101_2_alg».proof.Proof.Gen.Kernel.Skeleton
import proofs.«158478_j75677323756101_2_alg».proof.Proof.Gen.Kernel.Launch
import proofs.«158478_j75677323756101_2_alg».proof.Proof.Gen.Kernel.Points
import proofs.«158478_j75677323756101_2_alg».proof.Proof.Gen.Kernel.Frame
import proofs.«158478_j75677323756101_2_alg».proof.Proof.Gen.KernelIdeal
import proofs.«158478_j75677323756101_2_alg».proof.Proof.Gen.KernelIdeal.Skeleton
import proofs.«158478_j75677323756101_2_alg».proof.Proof.Gen.KernelIdeal.Launch
import proofs.«158478_j75677323756101_2_alg».proof.Proof.Gen.KernelIdeal.Points
import proofs.«158478_j75677323756101_2_alg».proof.Proof.Gen.KernelIdeal.Frame
import proofs.«158478_j75677323756101_2_alg».proof.Proof.Gen.ReferenceIdeal
import proofs.«158478_j75677323756101_2_alg».proof.Proof.Gen.ReferenceIdeal.Run
import proofs.«158478_j75677323756101_2_alg».proof.Proof.Gen.ReferenceIdeal.Read
import proofs.«158478_j75677323756101_2_alg».proof.Proof.Gen.Pre_finite_inputs
import proofs.«158478_j75677323756101_2_alg».proof.Proof.RefIsDft
import proofs.«158478_j75677323756101_2_alg».proof.Proof.KernelRun
import Idealize.ShloMosaic.Adequacy
import Idealize.ShloMosaic.Init

noncomputable section

namespace Cert.Proof

open Idealize.ShloMosaic Idealize.SL.Sem

/-- The word-level kernel runs, faults nowhere and leaves its six arguments as launched. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to preserve. -/
theorem preserves : Cert.preserves_Kernel_KernelIdeal := trivial

/-- From memories agreeing on the six arguments, the idealized kernel and the idealized reference both end with the
    specification's real and imaginary parts of those arguments. -/
theorem algebraic : Cert.algebraic_KernelIdeal_ReferenceIdeal := by
  intro m ρ m' ρ' _ hagree
  refine ⟨fun c => Cert.Dft.real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Dft.imag (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.IsDft.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v10_eq, Cert.ReferenceIdeal.IsDft.real_eq, a0, a1, a2, a3, a4, a5]
  · rw [Cert.ReferenceIdeal.Read.val_main_v17_eq, Cert.ReferenceIdeal.IsDft.imag_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
